-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S128x64 : Shape := ⟨2, ![128, 64]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_

variable [Facts]

def fn {F : FTy → Type} [FloatOps F] (main_arg0 : FVec F S16384x128 .f32) (main_arg1 : FVec F S128x64 .f32) (main_arg2 : FVec F S128x64 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  main_v13
-- ==== Kernel.lean ====
abbrev S16384x128 : Shape := ⟨2, ![16384, 128]⟩
abbrev S128x64 : Shape := ⟨2, ![128, 64]⟩
abbrev S128x128 : Shape := ⟨2, ![128, 128]⟩
abbrev S_ : Shape := ⟨0, ![]⟩
abbrev S128x128x1 : Shape := ⟨3, ![128, 128, 1]⟩
abbrev S1x128x64 : Shape := ⟨3, ![1, 128, 64]⟩
abbrev S128x128x64 : Shape := ⟨3, ![128, 128, 64]⟩
abbrev S128x8192 : Shape := ⟨2, ![128, 8192]⟩
abbrev S1x8192 : Shape := ⟨2, ![1, 8192]⟩
abbrev S16384x8192 : Shape := ⟨2, ![16384, 8192]⟩
abbrev S256x128 : Shape := ⟨2, ![256, 128]⟩
abbrev S256x8192 : Shape := ⟨2, ![256, 8192]⟩

abbrev nBuf : Space → Nat
  | .hbm => 19
  | .vmem => 6
  | .smem => 0
  | _ => 0

abbrev bufTy : (tb : Table) → Fin (tcTables nBuf tb) → BufTy
  | .hbm, ⟨0, _⟩ => ⟨S16384x128, .f32⟩
  | .hbm, ⟨1, _⟩ => ⟨S128x64, .f32⟩
  | .hbm, ⟨2, _⟩ => ⟨S128x64, .f32⟩
  | .hbm, ⟨3, _⟩ => ⟨S128x128, .i32⟩
  | .hbm, ⟨4, _⟩ => ⟨S128x128, .i32⟩
  | .hbm, ⟨5, _⟩ => ⟨S_, .i32⟩
  | .hbm, ⟨6, _⟩ => ⟨S128x128, .i32⟩
  | .hbm, ⟨7, _⟩ => ⟨S128x128, .i32⟩
  | .hbm, ⟨8, _⟩ => ⟨S128x128, .i1⟩
  | .hbm, ⟨9, _⟩ => ⟨S128x128, .f32⟩
  | .hbm, ⟨10, _⟩ => ⟨S128x128x1, .f32⟩
  | .hbm, ⟨11, _⟩ => ⟨S1x128x64, .f32⟩
  | .hbm, ⟨12, _⟩ => ⟨S128x128x64, .f32⟩
  | .hbm, ⟨13, _⟩ => ⟨S128x128x64, .f32⟩
  | .hbm, ⟨14, _⟩ => ⟨S128x128x64, .f32⟩
  | .hbm, ⟨15, _⟩ => ⟨S128x8192, .f32⟩
  | .hbm, ⟨16, _⟩ => ⟨S128x8192, .bf16⟩
  | .hbm, ⟨17, _⟩ => ⟨S1x8192, .f32⟩
  | .hbm, ⟨18, _⟩ => ⟨S16384x8192, .f32⟩
  | .local _ .vmem, ⟨0, _⟩ => ⟨S256x128, .f32⟩
  | .local _ .vmem, ⟨1, _⟩ => ⟨S256x128, .f32⟩
  | .local _ .vmem, ⟨2, _⟩ => ⟨S128x8192, .bf16⟩
  | .local _ .vmem, ⟨3, _⟩ => ⟨S1x8192, .f32⟩
  | .local _ .vmem, ⟨4, _⟩ => ⟨S256x8192, .f32⟩
  | .local _ .vmem, ⟨5, _⟩ => ⟨S256x8192, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_c : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_v12 : Ref sig .tc := ⟨.hbm, 16, rfl⟩
abbrev main_call0_v13 : Ref sig .tc := ⟨.hbm, 17, rfl⟩
abbrev main_v0 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S128x128 : S_.BroadcastsInDim S128x128 (![] : Fin 0 → Fin S128x128.rank)
  bcast_S128x128_S128x128x1_0_1 : S128x128.BroadcastsInDim S128x128x1 (![0, 1] : Fin 2 → Fin S128x128x1.rank)
  bcast_S128x64_S1x128x64_1_2 : S128x64.BroadcastsInDim S1x128x64 (![1, 2] : Fin 2 → Fin S1x128x64.rank)
  bcast_S128x128x1_S128x128x64_0_1_2 : S128x128x1.BroadcastsInDim S128x128x64 (![0, 1, 2] : Fin 3 → Fin S128x128x64.rank)
  bcast_S1x128x64_S128x128x64_0_1_2 : S1x128x64.BroadcastsInDim S128x128x64 (![0, 1, 2] : Fin 3 → Fin S128x128x64.rank)
  shapeCasts_S128x128x64_S128x8192 : S128x128x64.ShapeCasts S128x8192
  bitsLt_bf16_f32 : FTy.bits .bf16 < FTy.bits .f32
  shapeCasts_S128x64_S1x8192 : S128x64.ShapeCasts S1x8192
  inb_S256x128_S256x128_0_0 : ∀ a, (![0, 0] : Fin 2 → Nat) a + S256x128.size a ≤ S256x128.size a
  h_S256x128 : 0 < S256x128.numel
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S256x8192 : S1x8192.Broadcasts S256x8192
  inb_S256x8192_S256x8192_0_0 : ∀ a, (![0, 0] : Fin 2 → Nat) a + S256x8192.size a ≤ S256x8192.size a
  h_S256x8192 : 0 < S256x8192.numel
  dot_S256x128_S128x8192_S256x8192_1_0_0_1_n_n_wf : DotDims.WF S256x128 S128x8192 S256x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S16384x128.size a
  hwx0_0 : ∀ i : grid0.Coords, EltTy.bits .f32 = 32 ∨ (Rect.block (s := S16384x128) S256x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S128x8192.size a
  hwx0_1 : ∀ i : grid0.Coords, EltTy.bits .bf16 = 32 ∨ (Rect.block (s := S128x8192) S128x8192.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x8192.size a ≤ S16384x8192.size a
  hwx0_3 : ∀ i : grid0.Coords, EltTy.bits .f32 = 32 ∨ (Rect.block (s := S16384x8192) S256x8192.size (cc0_transform_3 i) (hinb0_3 i)).WholeWords (EltTy.packing .f32)

variable [Facts₀]

def dot_S256x128_S128x8192_S256x8192_1_0_0_1_n_n : DotDims S256x128 S128x8192 S256x8192 where
  lhsContracting := [1]
  rhsContracting := [0]
  lhsNonContracting := [0]
  rhsNonContracting := [1]
  lhsBatch := []
  rhsBatch := []
  wf := dot_S256x128_S128x8192_S256x8192_1_0_0_1_n_n_wf

abbrev win0_0 : Pipeline.Window sig grid0 :=
  Pipeline.Window.ofSpec (Memref.whole main_arg0) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v12) S128x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v13) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x128 : Shape := ⟨2, ![16384, 128]⟩
abbrev S128x64 : Shape := ⟨2, ![128, 64]⟩
abbrev S16384x128x1 : Shape := ⟨3, ![16384, 128, 1]⟩
abbrev S1x128x64 : Shape := ⟨3, ![1, 128, 64]⟩
abbrev S16384x128x64 : Shape := ⟨3, ![16384, 128, 64]⟩
abbrev S_ : Shape := ⟨0, ![]⟩
abbrev S16384x8192 : Shape := ⟨2, ![16384, 8192]⟩

abbrev nBuf : Space → Nat
  | .hbm => 15
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S128x64, .f32⟩
  | .hbm, ⟨2, _⟩ => ⟨S128x64, .f32⟩
  | .hbm, ⟨3, _⟩ => ⟨S16384x128x1, .f32⟩
  | .hbm, ⟨4, _⟩ => ⟨S1x128x64, .f32⟩
  | .hbm, ⟨5, _⟩ => ⟨S16384x128x64, .f32⟩
  | .hbm, ⟨6, _⟩ => ⟨S16384x128x64, .f32⟩
  | .hbm, ⟨7, _⟩ => ⟨S16384x128x64, .f32⟩
  | .hbm, ⟨8, _⟩ => ⟨S1x128x64, .f32⟩
  | .hbm, ⟨9, _⟩ => ⟨S16384x128x64, .f32⟩
  | .hbm, ⟨10, _⟩ => ⟨S16384x128x64, .f32⟩
  | .hbm, ⟨11, _⟩ => ⟨S_, .f32⟩
  | .hbm, ⟨12, _⟩ => ⟨S16384x128x64, .f32⟩
  | .hbm, ⟨13, _⟩ => ⟨S16384x128x64, .f32⟩
  | .hbm, ⟨14, _⟩ => ⟨S16384x8192, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_cst : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  bcast_S16384x128_S16384x128x1_0_1 : S16384x128.BroadcastsInDim S16384x128x1 (![0, 1] : Fin 2 → Fin S16384x128x1.rank)
  bcast_S128x64_S1x128x64_1_2 : S128x64.BroadcastsInDim S1x128x64 (![1, 2] : Fin 2 → Fin S1x128x64.rank)
  bcast_S16384x128x1_S16384x128x64_0_1_2 : S16384x128x1.BroadcastsInDim S16384x128x64 (![0, 1, 2] : Fin 3 → Fin S16384x128x64.rank)
  bcast_S1x128x64_S16384x128x64_0_1_2 : S1x128x64.BroadcastsInDim S16384x128x64 (![0, 1, 2] : Fin 3 → Fin S16384x128x64.rank)
  bcast_S_S16384x128x64 : S_.BroadcastsInDim S16384x128x64 (![] : Fin 0 → Fin S16384x128x64.rank)
  shapeCasts_S16384x128x64_S16384x8192 : S16384x128x64.ShapeCasts S16384x8192

variable [Facts₀]

class Facts : Prop extends Facts₀ where

variable [Facts]
-- ==== Proof.LibSelectorSum.lean ====
/-
  A sum against a one-hot selector, and the identity matrix's entry as a host program builds it.

  Multiplying a row by a block-diagonal (or any one-hot weighted) matrix leaves a sum in which every term but one is a
  product with zero. On the extended reals `0 · a = 0`, `a · 0 = 0` and `1 · a = a` hold for every `a`, the infinities
  included, so the sum collapses to its one term with no finiteness hypothesis.

  `jnp.eye` prints as: the row number (plus a zero offset) compared for equality with the column number, both as 32-bit
  words, and the one-bit answer converted to a float. For numbers below 2³² the words are equal exactly when the numbers
  are, so at the ideal values the entry is one on the diagonal and zero off it.
-/
import Idealize.ShloMosaic.Lib.ValueIdx
import Idealize.ShloMosaic.Lib.Affine
import Idealize.ShloMosaic.PureOps.Ideal.Laws

noncomputable section

namespace Cert.Lib.SelectorSum

open Idealize.ShloMosaic Idealize.ShloMosaic.ValueIdx
open scoped BigOperators

/-- A sum against a selector: if `e` is one at `f` and zero elsewhere, `∑ c, xr c · (e c · w) = xr f · w` on the
    extended reals, whatever the values (finite or not) of `xr` and `w`. -/
theorem sum_select {n : ℕ} (f : Fin n) (xr e : Fin n → EReal) (w : EReal)
    (h1 : e f = 1) (h0 : ∀ c, c ≠ f → e c = 0) :
    ∑ c, xr c * (e c * w) = xr f * w := by
  rw [Finset.sum_eq_single f]
  · rw [h1, one_mul]
  · intro c _ hc
    rw [h0 c hc, zero_mul, mul_zero]
  · intro h
    exact absurd (Finset.mem_univ f) h

/-- The identity matrix's entry (k, f) as the host builds it — `uitofp (cmpi eq (k + 0) f)` on 32-bit words — is, at the
    ideal values, one when `k = f` and zero otherwise, for any extent that fits a 32-bit word. -/
theorem eye_entry {n : ℕ} (hn : n ≤ 2 ^ 32) (k f : Fin n) :
    (FloatOps.uitofp (F := Ideal) .f32
      (IntOp.cmpi .eq (IntOp.addi (BitVec.ofNat 32 k.val) 0#32) (BitVec.ofNat 32 f.val)) : EReal)
      = if k = f then 1 else 0 := by
  have hadd : IntOp.addi (BitVec.ofNat 32 k.val) 0#32 = BitVec.ofNat 32 k.val := by
    unfold IntOp.addi; exact BitVec.add_zero _
  rw [hadd]
  by_cases h : k = f
  · subst h
    rw [if_pos rfl, IntOp.cmpi_eq.mpr rfl]
    show (((1#1 : BitVec 1).toNat : ℝ) : EReal) = 1
    norm_num
  · rw [if_neg h]
    have hne : ¬ IntOp.cmpi .eq (BitVec.ofNat 32 k.val) (BitVec.ofNat 32 f.val) = 1#1 := fun e => h (Fin.ext (by
      have e2 := congrArg BitVec.toNat (IntOp.cmpi_eq.mp e)
      simp only [BitVec.toNat_ofNat] at e2
      have hk := k.isLt
      have hf := f.isLt
      omega))
    rw [eq_zero_of_ne_one hne]
    show (((0#1 : BitVec 1).toNat : ℝ) : EReal) = 0
    norm_num

end Cert.Lib.SelectorSum

end
-- ==== Proof.EmbedSpec.lean ====
/-
  Per-feature affine embedding, as one function of the argument arrays.

  For a batch row `r`, a feature `f` and a lane `j` the result at column `f·64 + j` is
  `max (x[r,f] · W[f,j] + b[f,j]) 0`. A column `q < 8192` names the feature `q / 64` and the lane `q % 64`.

  One program computes this directly. The other multiplies row `r` of `x` by a block-diagonal matrix whose entry
  `(k, f·64 + j)` is `e(k,f) · W[f,j]`, with `e(k,f) = 1` when `k = f` and `0` otherwise. The sum over `k` has a single
  term that is not a product with zero, so it is `x[r,f] · W[f,j]` on the extended reals: only `0 · a = 0`, `a · 0 = 0`
  and `1 · a = a` are used, which hold at the infinities too, so no finiteness is needed (the selector sum and the
  identity matrix's entry are in LibSelectorSum).
-/
import proofs.«144583_j2791728742828_2_alg».proof.Proof.LibSelectorSum

noncomputable section

namespace Cert.Embed

open Idealize.ShloMosaic Idealize.ShloMosaic.ValueIdx
open scoped BigOperators

/-- The feature a column belongs to. -/
abbrev feat (q : Fin 8192) : Fin 128 := ⟨q.val / 64, by have := q.isLt; omega⟩

/-- The lane of a column inside its feature. -/
abbrev lane (q : Fin 8192) : Fin 64 := ⟨q.val % 64, Nat.mod_lt _ (by decide)⟩

/-- The embedding at row `r` and column `q`: feature `q / 64`, lane `q % 64`. -/
def entry (x : (⟨2, ![16384, 128]⟩ : Shape).Idx → EReal) (W b : (⟨2, ![128, 64]⟩ : Shape).Idx → EReal)
    (r : Fin 16384) (q : Fin 8192) : EReal :=
  max (x (ix2 r (feat q)) * W (ix2 (feat q) (lane q)) + b (ix2 (feat q) (lane q))) 0

/-- The whole result array: `entry` at each index's two coordinates. -/
def G (x : (⟨2, ![16384, 128]⟩ : Shape).Idx → EReal) (W b : (⟨2, ![128, 64]⟩ : Shape).Idx → EReal) :
    (⟨2, ![16384, 8192]⟩ : Shape).Idx → EReal :=
  fun i => entry x W b (i 0) (i 1)

theorem G_ix2 (x : (⟨2, ![16384, 128]⟩ : Shape).Idx → EReal) (W b : (⟨2, ![128, 64]⟩ : Shape).Idx → EReal)
    (r : Fin 16384) (q : Fin 8192) : G x W b (ix2 r q) = entry x W b r q := rfl

end Cert.Embed

end
-- ==== Proof.HostGlue.lean ====
/-
  The two arrays the host prepares for the kernel, read at an index.

  The weight matrix [128, 8192]: the identity matrix [128,128] (row number compared with column number) broadcast along a
  new lane axis, times `W` [128,64] broadcast along a new leading axis, reshaped [128,128,64] → [128,8192]. Its entry
  (k, q) is `e(k, q / 64) · W[q / 64, q % 64]` with `e` one on the diagonal and zero off it.

  The bias row [1, 8192] is `b` [128,64] reshaped: its entry (0, q) is `b[q / 64, q % 64]`.
-/
import proofs.«144583_j2791728742828_2_alg».proof.Proof.Gen.KernelIdeal
import proofs.«144583_j2791728742828_2_alg».proof.Proof.EmbedSpec
import Idealize.ShloMosaic.Lib.Pipeline.Value
import Idealize.ShloMosaic.Lib.IdealHost

noncomputable section

namespace Cert.KernelIdeal.Glue

open Cert.KernelIdeal Cert.KernelIdeal.Gen
open Idealize.ShloMosaic Idealize.ShloMosaic.ValueIdx Cert.Embed

/-- The identity matrix as the host builds it. -/
def eye : FVec Ideal S128x128 .f32 :=
  uitofp .f32 (cmpi .eq (addi (iotaInDim S128x128 32 0) (broadcastInDim S128x128 ![] bcast_S_S128x128 (constantI S_ 32 0#32)))
    (iotaInDim S128x128 32 1))

/-- The block-diagonal weight matrix as the host builds it from `W`. -/
def wbig (W : FVec Ideal S128x64 .f32) : FVec Ideal S128x8192 .bf16 :=
  truncf .bf16 (shapeCast S128x8192 (mulf
    (broadcastInDim S128x128x64 ![0, 1, 2] bcast_S128x128x1_S128x128x64_0_1_2
      (broadcastInDim S128x128x1 ![0, 1] bcast_S128x128_S128x128x1_0_1 eye))
    (broadcastInDim S128x128x64 ![0, 1, 2] bcast_S1x128x64_S128x128x64_0_1_2
      (broadcastInDim S1x128x64 ![1, 2] bcast_S128x64_S1x128x64_1_2 W))) shapeCasts_S128x128x64_S128x8192) bitsLt_bf16_f32

/-- The bias row as the host builds it from `b`. -/
def bbig (b : FVec Ideal S128x64 .f32) : FVec Ideal S1x8192 .f32 :=
  shapeCast S1x8192 b shapeCasts_S128x64_S1x8192

/-- The identity matrix is one on the diagonal and zero off it. -/
theorem eye_apply (k f : Fin 128) : eye (ix2 k f) = if k = f then 1 else 0 := by
  unfold eye
  show FloatOps.uitofp (F := Ideal) .f32 (IntOp.cmpi .eq (IntOp.addi (BitVec.ofNat 32 k.val)
    (broadcastInDim S128x128 ![] bcast_S_S128x128 (constantI S_ 32 0#32) (ix2 k f))) (BitVec.ofNat 32 f.val)) = _
  rw [broadcastInDim_scalar_apply]
  exact Cert.Lib.SelectorSum.eye_entry (by norm_num) k f

/-- A [128,128] array broadcast along a new last axis of extent 64 reads, at (k, f, l), its entry (k, f). -/
theorem lanes_apply {α : Type} (E : S128x128.Idx → α) (k f : Fin 128) (l : Fin 64) :
    broadcastInDim S128x128x64 ![0, 1, 2] bcast_S128x128x1_S128x128x64_0_1_2
      (broadcastInDim S128x128x1 ![0, 1] bcast_S128x128_S128x128x1_0_1 E) (ix3 k f l) = E (ix2 k f) := by
  refine (broadcastInDim_apply _ bcast_S128x128x1_S128x128x64_0_1_2 _ (ix3 k f l) (ix3 k f (0 : Fin 1)) (fun a => match a with
    | ⟨0, _⟩ => by show k.val = if (128 : Nat) = 1 then 0 else k.val; rw [if_neg (by decide)]
    | ⟨1, _⟩ => by show f.val = if (128 : Nat) = 1 then 0 else f.val; rw [if_neg (by decide)]
    | ⟨2, _⟩ => by show 0 = if (1 : Nat) = 1 then 0 else l.val; rw [if_pos rfl])).trans ?_
  exact broadcastInDim_apply _ bcast_S128x128_S128x128x1_0_1 E (ix3 k f (0 : Fin 1)) (ix2 k f) (fun a => match a with
    | ⟨0, _⟩ => by show k.val = if (128 : Nat) = 1 then 0 else k.val; rw [if_neg (by decide)]
    | ⟨1, _⟩ => by show f.val = if (128 : Nat) = 1 then 0 else f.val; rw [if_neg (by decide)])

/-- A [128,64] array broadcast along a new leading axis of extent 128 reads, at (k, f, l), its entry (f, l). -/
theorem rows_apply {α : Type} (W : S128x64.Idx → α) (k f : Fin 128) (l : Fin 64) :
    broadcastInDim S128x128x64 ![0, 1, 2] bcast_S1x128x64_S128x128x64_0_1_2
      (broadcastInDim S1x128x64 ![1, 2] bcast_S128x64_S1x128x64_1_2 W) (ix3 k f l) = W (ix2 f l) := by
  refine (broadcastInDim_apply _ bcast_S1x128x64_S128x128x64_0_1_2 _ (ix3 k f l) (ix3 (0 : Fin 1) f l) (fun a => match a with
    | ⟨0, _⟩ => by show 0 = if (1 : Nat) = 1 then 0 else k.val; rw [if_pos rfl]
    | ⟨1, _⟩ => by show f.val = if (128 : Nat) = 1 then 0 else f.val; rw [if_neg (by decide)]
    | ⟨2, _⟩ => by show l.val = if (64 : Nat) = 1 then 0 else l.val; rw [if_neg (by decide)])).trans ?_
  exact broadcastInDim_apply _ bcast_S128x64_S1x128x64_1_2 W (ix3 (0 : Fin 1) f l) (ix2 f l) (fun a => match a with
    | ⟨0, _⟩ => by show f.val = if (128 : Nat) = 1 then 0 else f.val; rw [if_neg (by decide)]
    | ⟨1, _⟩ => by show l.val = if (64 : Nat) = 1 then 0 else l.val; rw [if_neg (by decide)])

/-- The weight matrix at (k, q): the diagonal selector at (k, q / 64) times `W` at (q / 64, q % 64). -/
theorem wbig_apply (W : FVec Ideal S128x64 .f32) (k : Fin 128) (q : Fin 8192) :
    wbig W (ix2 k q) = (if k = feat q then 1 else 0) * W (ix2 (feat q) (lane q)) := by
  have hk := k.isLt
  have hq := q.isLt
  unfold wbig
  rw [truncf_apply]
  refine (shapeCast_apply _ shapeCasts_S128x128x64_S128x8192 (ix2 k q) (ix3 k (feat q) (lane q)) (by
    rw [Shape.rowMajor_val_three, Shape.rowMajor_val_two]
    show (k.val * 128 + q.val / 64) * 64 + q.val % 64 = k.val * 8192 + q.val
    omega)).trans ?_
  rw [mulf_apply, lanes_apply, rows_apply, eye_apply]

/-- The bias row at (0, q) is `b` at (q / 64, q % 64). -/
theorem bbig_apply (b : FVec Ideal S128x64 .f32) (q : Fin 8192) :
    bbig b (ix2 (0 : Fin 1) q) = b (ix2 (feat q) (lane q)) := by
  have hq := q.isLt
  unfold bbig
  exact shapeCast_apply _ shapeCasts_S128x64_S1x8192 (ix2 (0 : Fin 1) q) (ix2 (feat q) (lane q)) (by
    rw [Shape.rowMajor_val_two, Shape.rowMajor_val_two]
    show q.val / 64 * 64 + q.val % 64 = 0 * 8192 + q.val
    omega)

end Cert.KernelIdeal.Glue

end
-- ==== Proof.LibPlainDot.lean ====
/-
  A plain matrix product read at an entry, at the ideal values.

  A kernel's `tpu.matmul` of an M×K by a K×N matrix (contract the left operand's columns against the right operand's rows,
  no batch axis) into the zero splat is, at the entry (a, b), the sum over the contracted coordinate c of
  `A (a, c) · B (c, b)`: no rounding, no chunk order. In particular an entry of the product reads only row `a` of the
  left operand — rows of the left operand that hold nothing meaningful spoil only their own rows of the product.
-/
import Idealize.ShloMosaic.Lib.ValueIdx
import Idealize.ShloMosaic.Lib.Pipeline.Value
import Idealize.ShloMosaic.PureOps.Ideal.Laws

noncomputable section

namespace Cert.PlainDot

open Idealize.ShloMosaic Idealize.ShloMosaic.ValueIdx

/-- A kernel's plain product of an M×K by a K×N matrix into the zero splat, read at an entry, is the sum over the
    contracted coordinate of the products of the entries. At the ideal values. -/
theorem matmul_zero_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.PlainDot

end
-- ==== Proof.Payload.lean ====
/-
  The kernel body's stored value at an index.

  The body multiplies the [256,128] block of `x` by the [128,8192] weight matrix (a plain matrix product into a zero
  accumulator), adds the [1,8192] bias row broadcast over the 256 rows, and takes the maximum with zero. At the ideal
  values the change of float format is the identity and the product is the plain sum over the contracted coordinate, so
  the entry (p, q) is `max ((∑ c, x0[p,c] · w[c,q]) + bias[0,q]) 0`.
-/
import proofs.«144583_j2791728742828_2_alg».proof.Proof.Gen.KernelIdeal.Skeleton
import proofs.«144583_j2791728742828_2_alg».proof.Proof.LibPlainDot
import Idealize.ShloMosaic.Lib.ValueLayout

noncomputable section

namespace Cert.KernelIdeal.Payload

open Cert.KernelIdeal Cert.KernelIdeal.Gen
open Idealize.ShloMosaic Idealize.ShloMosaic.ValueIdx
open scoped BigOperators

/-- The body's dimension numbers are those of a plain 256×128 by 128×8192 product. -/
theorem dot_eq_plain : dot_S256x128_S128x8192_S256x8192_1_0_0_1_n_n = DotDims.plain 256 128 8192 := rfl

/-- The product term of the body at (p, q). -/
theorem dot_apply (x0 : FVec Ideal S256x128 .f32) (x1 : FVec Ideal S128x8192 .bf16) (p : Fin 256) (q : Fin 8192) :
    matmul dot_S256x128_S128x8192_S256x8192_1_0_0_1_n_n none (truncf .bf16 x0 bitsLt_bf16_f32)
      (shapeCast S128x8192 x1 shapeCasts_S128x8192_S128x8192) (constant (F := Ideal) S256x8192 .f32 0x00000000#32) (ix2 p q)
      = ∑ c : Fin 128, x0 (ix2 p c) * x1 (ix2 c q) := by
  rw [dot_eq_plain]
  refine (Cert.PlainDot.matmul_zero_plain_apply none _ _ p q).trans ?_
  refine Finset.sum_congr rfl fun c _ => ?_
  rw [truncf_apply, shapeCast_self]

/-- The bias term of the body at (p, q): the one row at `q`. -/
theorem bias_apply (x2 : FVec Ideal S1x8192 .f32) (p : Fin 256) (q : Fin 8192) :
    broadcastTo S256x8192 (shapeCast S1x8192 x2 shapeCasts_S1x8192_S1x8192) broadcasts_S1x8192_S256x8192 (ix2 p q)
      = x2 (ix2 (0 : Fin 1) q) := by
  rw [broadcastTo_1b_ab_apply, shapeCast_self]

/-- The body's stored value at (p, q). -/
theorem pay_apply (x0 : Vec Ideal S256x128 .f32) (x1 : Vec Ideal S128x8192 .bf16) (x2 : Vec Ideal S1x8192 .f32)
    (p : Fin 256) (q : Fin 8192) :
    k0_pay1 (F := Ideal) x0 x1 x2 (ix2 p q)
      = max ((∑ c : Fin 128, x0 (ix2 p c) * x1 (ix2 c q)) + x2 (ix2 (0 : Fin 1) q)) 0 := by
  unfold k0_pay1
  rw [maximumf_apply, addf_apply, broadcast_apply, dot_apply, bias_apply]
  show max _ (Ideal.ofBits .f32 0x00000000#32) = _
  rw [Ideal.ofBits_zero_f32]

end Cert.KernelIdeal.Payload

end
-- ==== Proof.KernelValue.lean ====
/-
  The kernel's result array is the embedding `Cert.Embed.G` of the three argument arrays.

  The grid has 64 points; point `t` reads rows `256·t … 256·t + 255` of `x`, the whole weight matrix and the whole bias
  row (both prepared by the host from `W` and `b`), and writes rows `256·t … 256·t + 255` of the result. At an entry
  (p, q) of the block the body's value is `max ((∑ c, x[256·t + p, c] · e(c, q/64) · W[q/64, q%64]) + b[q/64, q%64]) 0`;
  the sum against the diagonal selector `e` keeps the single term `c = q/64`, which makes it the embedding's entry at
  row `256·t + p` and column `q`. The 64 row blocks cover the result array, so the array is `G`.
-/
import proofs.«144583_j2791728742828_2_alg».proof.Proof.Gen.KernelIdeal.Value
import proofs.«144583_j2791728742828_2_alg».proof.Proof.HostGlue
import proofs.«144583_j2791728742828_2_alg».proof.Proof.Payload
import Idealize.ShloMosaic.Lib.StableHlo.Run

noncomputable section

namespace Cert.KernelIdeal.Hand

open Cert.KernelIdeal Cert.KernelIdeal.Gen Cert.KernelIdeal.Value
open Idealize.ShloMosaic Idealize.ShloMosaic.TcCoe Idealize.SL.Sem Idealize.ShloMosaic.StableHlo
open Idealize.ShloMosaic.ValueIdx Cert.Embed
open Idealize.ShloMosaic.Pipeline (Dat)
open scoped BigOperators

variable (m : (ℓ : Loc nD τ sig) → Buf (Elt Ideal) ℓ) (ρ : Dev nD → PrngReg)

theorem hz : (![0, 0] : Fin 2 → Nat) = fun _ => 0 := funext fun a => by fin_cases a <;> rfl

/-! ## The arrays the region finds -/

/-- The weight matrix the region finds is the host's block-diagonal matrix of `W`. -/
theorem V_wbig (c : Dev nD) :
    (V m c main_call0_v12 : S128x8192.Idx → EReal) = Glue.wbig (m ((c : Thread nD τ).loc main_arg1)) := by
  dsimp only [Gen.V, Gen.hostOps0]; after_results; rfl

/-- The bias row the region finds is `b` reshaped. -/
theorem V_bbig (c : Dev nD) :
    (V m c main_call0_v13 : S1x8192.Idx → EReal) = Glue.bbig (m ((c : Thread nD τ).loc main_arg2)) := by
  dsimp only [Gen.V, Gen.hostOps0]; after_results; rfl

/-! ## The windows' blocks -/

/-- The block indices over the grid: `x` and the result move one row block per point, the weight matrix and the bias
    row stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Point `t`'s block of `x` at (p, k) is `x` at row `256·t + p`. -/
theorem iblk0_apply (c : Dev nD) (t : Fin cfg0.N) (p : Fin 256) (k : Fin 128) (r : Fin 16384)
    (hr : r.val = t.val * 256 + p.val) :
    (iblk m c 0 t : Vec Ideal S256x128 .f32) (ix2 p k)
      = (m ((c : Thread nD τ).loc main_arg0) : S16384x128.Idx → EReal) (ix2 r k) := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t (0 : Fin 2) * 256 + 1 * p.val = r.val; rw [e0, hr]; omega
  | ⟨1, _⟩ => show win0_0.index t (1 : Fin 2) * 128 + 1 * k.val = k.val; rw [e1]; omega

/-- Every point's block of the weight matrix is the whole matrix. -/
theorem iblk1_apply (c : Dev nD) (t : Fin cfg0.N) (k : Fin 128) (q : Fin 8192) :
    (iblk m c 1 t : Vec Ideal S128x8192 .bf16) (ix2 k q) = Glue.wbig (m ((c : Thread nD τ).loc main_arg1)) (ix2 k q) := by
  obtain ⟨-, -, e2, e3, -⟩ := idx_facts t
  unfold iblk
  rw [View.read_apply]
  show (V m c main_call0_v12 : S128x8192.Idx → EReal) _ = _
  rw [V_wbig]
  congr 1
  funext a
  apply Fin.ext
  match a with
  | ⟨0, _⟩ => show win0_1.index t (0 : Fin 2) * 128 + 1 * k.val = k.val; rw [e2]; omega
  | ⟨1, _⟩ => show win0_1.index t (1 : Fin 2) * 8192 + 1 * q.val = q.val; rw [e3]; omega

/-- Every point's block of the bias row is the whole row. -/
theorem iblk2_apply (c : Dev nD) (t : Fin cfg0.N) (q : Fin 8192) :
    (iblk m c 2 t : Vec Ideal S1x8192 .f32) (ix2 (0 : Fin 1) q)
      = Glue.bbig (m ((c : Thread nD τ).loc main_arg2)) (ix2 (0 : Fin 1) q) := by
  obtain ⟨-, -, -, -, e4, e5, -⟩ := idx_facts t
  unfold iblk
  rw [View.read_apply]
  show (V m c main_call0_v13 : S1x8192.Idx → EReal) _ = _
  rw [V_bbig]
  congr 1
  funext a
  apply Fin.ext
  match a with
  | ⟨0, _⟩ => show win0_2.index t (0 : Fin 2) * 1 + 1 * 0 = 0; rw [e4]
  | ⟨1, _⟩ => show win0_2.index t (1 : Fin 2) * 8192 + 1 * q.val = q.val; rw [e5]; omega

/-! ## One entry of one block -/

/-- The body's value at an entry of its block is the embedding's entry, whenever the three loaded blocks are: rows
    `256·tv + p` of `x`, the host's weight matrix of `W`, the host's bias row of `b`. -/
theorem block_value (x0 : Vec Ideal S256x128 .f32) (x1 : Vec Ideal S128x8192 .bf16) (x2 : Vec Ideal S1x8192 .f32)
    (x : FVec Ideal S16384x128 .f32) (W b : FVec Ideal S128x64 .f32) (tv : ℕ) (j : S256x8192.Idx) (i : S16384x8192.Idx)
    (hi0 : (i 0).val = tv * 256 + (j 0).val) (hi1 : (i 1).val = (j 1).val)
    (h0 : ∀ (p : Fin 256) (k : Fin 128) (r : Fin 16384), r.val = tv * 256 + p.val → x0 (ix2 p k) = x (ix2 r k))
    (h1 : ∀ (k : Fin 128) (q : Fin 8192), x1 (ix2 k q) = Glue.wbig W (ix2 k q))
    (h2 : ∀ q : Fin 8192, x2 (ix2 (0 : Fin 1) q) = Glue.bbig b (ix2 (0 : Fin 1) q)) :
    k0_pay1 (F := Ideal) x0 x1 x2 j = G x W b i := by
  obtain ⟨p, q, rfl⟩ : ∃ (p : Fin 256) (q : Fin 8192), j = ix2 p q := ⟨j 0, j 1, eq_ix2 j⟩
  obtain ⟨r, q', rfl⟩ : ∃ (r : Fin 16384) (q' : Fin 8192), i = ix2 r q' := ⟨i 0, i 1, eq_ix2 i⟩
  have hr : r.val = tv * 256 + p.val := hi0
  obtain rfl : q' = q := Fin.ext hi1
  rw [Payload.pay_apply, G_ix2]
  unfold entry
  have hsum : (∑ c : Fin 128, x0 (ix2 p c) * x1 (ix2 c q')) = x (ix2 r (feat q')) * W (ix2 (feat q') (lane q')) := by
    rw [← Cert.Lib.SelectorSum.sum_select (feat q') (fun c => x (ix2 r c)) (fun c => if c = feat q' then 1 else 0) (W (ix2 (feat q') (lane q')))
      (if_pos rfl) (fun c hc => if_neg hc)]
    refine Finset.sum_congr rfl fun c _ => ?_
    rw [h0 p c r hr, h1 c q', Glue.wbig_apply]
  rw [hsum, h2 q', Glue.bbig_apply]

/-! ## What each point writes back, and the whole array -/

/-- What point `t` writes back is block `t` of the embedding of the argument arrays. -/
theorem flushed_eq (c : Dev nD) (t : Fin cfg0.N) :
    (dats m 0 c).flushed 3 t = ((cfg0.win 3).blk t).view.read (Elt Ideal)
      (G (m ((c : Thread nD τ).loc main_arg0)) (m ((c : Thread nD τ).loc main_arg1)) (m ((c : Thread nD τ).loc main_arg2))) := by
  rw [Value.flushed3]
  unfold out0_3
  rw [View.canon_unit_zero hz]
  simp only [View.ld_unit_zero (S := S256x128) hz, View.ld_unit_zero (S := S128x8192) hz, View.ld_unit_zero (S := S1x8192) hz]
  obtain ⟨-, -, -, -, -, -, e6, e7⟩ := idx_facts t
  funext j
  show k0_pay1 (F := Ideal) (iblk m c 0 t) (iblk m c 1 t) (iblk m c 2 t) j
    = G (m ((c : Thread nD τ).loc main_arg0)) (m ((c : Thread nD τ).loc main_arg1)) (m ((c : Thread nD τ).loc main_arg2))
        (((cfg0.win 3).blk t).view.emb j)
  refine block_value (iblk m c 0 t) (iblk m c 1 t) (iblk m c 2 t) (m ((c : Thread nD τ).loc main_arg0))
    (m ((c : Thread nD τ).loc main_arg1)) (m ((c : Thread nD τ).loc main_arg2)) t.val j (((cfg0.win 3).blk t).view.emb j)
    ?_ ?_ (iblk0_apply m c t) (iblk1_apply m c t) (iblk2_apply m c t)
  · show win0_3.index t (0 : Fin 2) * 256 + 1 * (j 0).val = t.val * 256 + (j 0).val
    rw [e6]; omega
  · show win0_3.index t (1 : Fin 2) * 8192 + 1 * (j 1).val = (j 1).val
    rw [e7]; omega

/-- An index of the result array is in point `t`'s block iff each coordinate is in the block's range on its axis. -/
theorem mem_blk (t : Fin cfg0.N) (i : S16384x8192.Idx) :
    i ∈ ((cfg0.win 3).blk t).view.set ↔ ∀ a : Fin 2, win0_3.index t a * S256x8192.size a ≤ (i a).val
      ∧ (i a).val < win0_3.index t a * S256x8192.size a + S256x8192.size a := by
  show i ∈ ((View.whole main_v0).slice (win0_3.rect t)).set ↔ _
  rw [View.set_slice_whole, Rect.mem_set_unit]
  exact Iff.rfl

/-- Row `r` of the result lies in the block of point `r / 256`: the 64 row blocks cover the array. -/
theorem cover (i : S16384x8192.Idx) :
    ∃ t : Fin cfg0.N, (cfg0.win 3).flush t = true ∧ i ∈ ((cfg0.win 3).blk t).view.set := by
  have hi0 : (i 0).val < 16384 := (i 0).isLt
  have hi1 : (i 1).val < 8192 := (i 1).isLt
  have hN : cfg0.N = 64 := N_0
  obtain ⟨t, ht⟩ : ∃ t : Fin cfg0.N, t.val = (i 0).val / 256 := ⟨⟨(i 0).val / 256, by omega⟩, rfl⟩
  obtain ⟨-, -, -, -, -, -, e6, e7⟩ := idx_facts t
  refine ⟨t, flush0_3 t, ?_⟩
  rw [mem_blk]
  intro a
  match a with
  | ⟨0, _⟩ =>
    show win0_3.index t (0 : Fin 2) * 256 ≤ (i 0).val ∧ (i 0).val < win0_3.index t (0 : Fin 2) * 256 + 256
    rw [e6, ht]; omega
  | ⟨1, _⟩ =>
    show win0_3.index t (1 : Fin 2) * 8192 ≤ (i 1).val ∧ (i 1).val < win0_3.index t (1 : Fin 2) * 8192 + 8192
    rw [e7]; omega

/-- The result array after the run is the embedding of the argument arrays. -/
theorem final (c : Dev nD) : (dats m 0 c).arrAt 3 cfg0.N
    = G (m ((c : Thread nD τ).loc main_arg0)) (m ((c : Thread nD τ).loc main_arg1)) (m ((c : Thread nD τ).loc main_arg2)) :=
  (dats m 0 c).arrAt_eq_of_cover 3 _ (fun t _ => flushed_eq m c t) cover

/-- The kernel's run: the result array ends at the embedding of the arguments, the arguments unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Hand

end
-- ==== Proof.RefValue.lean ====
/-
  The reference, index by index, is the embedding `Cert.Embed.G`.

  The reference broadcasts `x` to [16384,128,64] along the lane axis, `W` and `b` along the row axis, forms
  `max (x·W + b) 0` entry by entry and reshapes [16384,128,64] to [16384,8192]. The reshape keeps the row-major
  position, so column `q` of row `r` comes from the entry (r, q / 64, q % 64).
-/
import proofs.«144583_j2791728742828_2_alg».proof.Proof.Gen.ReferenceIdeal.Read
import proofs.«144583_j2791728742828_2_alg».proof.Proof.EmbedSpec

noncomputable section

namespace Cert.ReferenceIdeal.RefValue

open Cert.ReferenceIdeal Cert.ReferenceIdeal.Gen Cert.ReferenceIdeal.Read
open Idealize.ShloMosaic Idealize.ShloMosaic.ValueIdx Cert.Embed

/-- Through the reshape and the two broadcasts, the entry of `x` read for (r, q) is (r, q / 64). -/
theorem idx_x (r : Fin 16384) (q : Fin 8192) :
    idx_main_v0 (idx_main_v2 (idx_main_v9 (ix2 r q))) = ix2 r (feat q) := by
  have hr := r.isLt
  have hq := q.isLt
  funext a
  apply Fin.ext
  match a with
  | ⟨0, _⟩ => show (r.val * 8192 + q.val) / 8192 = r.val; omega
  | ⟨1, _⟩ => show (r.val * 8192 + q.val) / 64 % 128 = q.val / 64; omega

/-- The entry of `W` read for (r, q) is (q / 64, q % 64). -/
theorem idx_w (r : Fin 16384) (q : Fin 8192) :
    idx_main_v1 (idx_main_v3 (idx_main_v9 (ix2 r q))) = ix2 (feat q) (lane q) := by
  have hr := r.isLt
  have hq := q.isLt
  funext a
  apply Fin.ext
  match a with
  | ⟨0, _⟩ => show (r.val * 8192 + q.val) / 64 % 128 = q.val / 64; omega
  | ⟨1, _⟩ => show (r.val * 8192 + q.val) % 64 = q.val % 64; omega

/-- The entry of `b` read for (r, q) is (q / 64, q % 64). -/
theorem idx_b (r : Fin 16384) (q : Fin 8192) :
    idx_main_v5 (idx_main_v6 (idx_main_v9 (ix2 r q))) = ix2 (feat q) (lane q) := by
  have hr := r.isLt
  have hq := q.isLt
  funext a
  apply Fin.ext
  match a with
  | ⟨0, _⟩ => show (r.val * 8192 + q.val) / 64 % 128 = q.val / 64; omega
  | ⟨1, _⟩ => show (r.val * 8192 + q.val) % 64 = q.val % 64; omega

/-- The reference's result array is the embedding of its three arguments. -/
theorem ref_eq (x : FVec Ideal S16384x128 .f32) (W b : FVec Ideal S128x64 .f32) :
    val_main_v9 (F := Ideal) x W b = G x W b := by
  funext i
  obtain ⟨r, q, rfl⟩ : ∃ (r : Fin 16384) (q : Fin 8192), i = ix2 r q := ⟨i 0, i 1, eq_ix2 i⟩
  rw [val_main_v9_apply, val_main_v8_apply, val_main_v7_apply, val_main_v4_apply, val_main_v2_apply, val_main_v0_apply,
    val_main_v3_apply, val_main_v1_apply, val_main_v6_apply, val_main_v5_apply, val_main_call0_v0_apply,
    val_main_call0_cst_apply, idx_x, idx_w, idx_b, G_ix2]
  show max (x (ix2 r (feat q)) * W (ix2 (feat q) (lane q)) + b (ix2 (feat q) (lane q))) (Ideal.ofBits .f32 0x00000000#32) = _
  rw [Ideal.ofBits_zero_f32]
  rfl

end Cert.ReferenceIdeal.RefValue

end
-- ==== Proof.lean ====
/-
  Per-feature affine embedding: `out[r, f·64 + j] = max (x[r,f] · W[f,j] + b[f,j]) 0` for 16384 rows, 128 features and
  64 lanes.

  The kernel computes it as one matrix product per block of 256 rows: the host first builds the block-diagonal matrix
  `Wbig[k, f·64 + j] = e(k,f) · W[f,j]` (`e` the identity matrix) and the bias row `b` reshaped to [1, 8192]; the body
  forms `max (x_block · Wbig + bias) 0`. The reference broadcasts, multiplies, adds, takes the maximum with zero entry
  by entry and reshapes [16384,128,64] to [16384,8192].

  At the ideal values a change of float format is the identity and the matrix product is the plain sum over the
  contracted coordinate. In `∑ k, x[r,k] · (e(k,f) · W[f,j])` every term with `k ≠ f` is a product with zero and the term
  `k = f` is `x[r,f] · (1 · W[f,j])`; on the extended reals `0 · a = 0`, `a · 0 = 0` and `1 · a = a` hold for every `a`,
  infinite ones included, so the sum is `x[r,f] · W[f,j]` and the two programs compute the same function
  `Cert.Embed.G` of their arguments (EmbedSpec). The finiteness of the inputs is not used.

  The modules: LibSelectorSum (the selector sum and the identity matrix's entry), EmbedSpec (the function), RefValue (the reference is that function), HostGlue (the
  host-built weight matrix and bias row at an index), Payload (the body's value at an index), KernelValue (each block
  of the kernel's result, the cover of the array by the 64 row blocks, the kernel's run). The three frames are the
  generated ones; the ideal pass rewrote nothing, so the idealization conjunct is `True`.
-/
import proofs.«144583_j2791728742828_2_alg».proof.Defs
import proofs.«144583_j2791728742828_2_alg».proof.Proof.Gen.Kernel
import proofs.«144583_j2791728742828_2_alg».proof.Proof.Gen.Kernel.Skeleton
import proofs.«144583_j2791728742828_2_alg».proof.Proof.Gen.Kernel.Launch
import proofs.«144583_j2791728742828_2_alg».proof.Proof.Gen.Kernel.Points
import proofs.«144583_j2791728742828_2_alg».proof.Proof.Gen.Kernel.Frame
import proofs.«144583_j2791728742828_2_alg».proof.Proof.Gen.KernelIdeal
import proofs.«144583_j2791728742828_2_alg».proof.Proof.Gen.KernelIdeal.Skeleton
import proofs.«144583_j2791728742828_2_alg».proof.Proof.Gen.KernelIdeal.Launch
import proofs.«144583_j2791728742828_2_alg».proof.Proof.Gen.KernelIdeal.Points
import proofs.«144583_j2791728742828_2_alg».proof.Proof.Gen.KernelIdeal.Frame
import proofs.«144583_j2791728742828_2_alg».proof.Proof.Gen.ReferenceIdeal
import proofs.«144583_j2791728742828_2_alg».proof.Proof.Gen.Pre_finite_inputs
import proofs.«144583_j2791728742828_2_alg».proof.Proof.Gen.KernelIdeal.Value
import proofs.«144583_j2791728742828_2_alg».proof.Proof.Gen.ReferenceIdeal.Run
import proofs.«144583_j2791728742828_2_alg».proof.Proof.Gen.ReferenceIdeal.Read
import proofs.«144583_j2791728742828_2_alg».proof.Proof.KernelValue
import proofs.«144583_j2791728742828_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and keeps its arguments: the generated frame. -/
theorem frame_k : Cert.frame_Kernel := fun m ρ _ => Cert.Kernel.Gen.frame m ρ

/-- The idealized kernel runs and keeps its arguments: the generated frame. -/
theorem frame_ki : Cert.frame_KernelIdeal := fun m ρ _ => Cert.KernelIdeal.Gen.frame m ρ

/-- The idealized reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the result array at the embedding `Cert.Embed.G` of the (agreeing) arguments. -/
theorem algebraic : Cert.algebraic_KernelIdeal_ReferenceIdeal := by
  intro m ρ m' ρ' _ hagree
  refine ⟨fun c => Cert.Embed.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.ref_eq, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
